-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x4096 : Shape := ⟨3, ![64, 64, 4096]⟩
abbrev S4096x1024 : Shape := ⟨2, ![4096, 1024]⟩
abbrev S1024 : Shape := ⟨1, ![1024]⟩
abbrev S_ : Shape := ⟨0, ![]⟩

class Facts : Prop where
  bcast_S_S64x64x4096 : S_.BroadcastsInDim S64x64x4096 (![] : Fin 0 → Fin S64x64x4096.rank)
  reducesTo_S64x64x4096_S_d0_1_2 : S64x64x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S64x64x4096 .f32) (main_arg1 : FVec F S4096x1024 .f32) (main_arg2 : FVec F S1024 .f32) (main_arg3 : FVec F S1024 .f32) (main_arg4 : FVec F S1024 .f32) (main_arg5 : FVec F S1024 .f32) (main_arg6 : FVec F S1024 .f32) : IVec S_ 1 :=
  let main_v0 : FVec F S64x64x4096 .f32 := Host.absf main_arg0
  let main_cst : FVec F S_ .f32 := constant S_ .f32 0x7F800000#32
  let main_v1 : FVec F S64x64x4096 .f32 := broadcastInDim S64x64x4096 ![] bcast_S_S64x64x4096 main_cst
  let main_v2 : IVec S64x64x4096 1 := cmpf .olt main_v0 main_v1
  let main_c : IVec S_ 1 := constantI S_ 1 1#1
  let main_v3 : IVec S_ 1 := (fun x v => Host.reduce IntOp.andi x v reducesTo_S64x64x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S64x64x4096 : Shape := ⟨3, ![64, 64, 4096]⟩
abbrev S4096x1024 : Shape := ⟨2, ![4096, 1024]⟩
abbrev S1024 : Shape := ⟨1, ![1024]⟩
abbrev S_ : Shape := ⟨0, ![]⟩
abbrev S4096x4096 : Shape := ⟨2, ![4096, 4096]⟩
abbrev S1x1024 : Shape := ⟨2, ![1, 1024]⟩
abbrev S512x4096 : Shape := ⟨2, ![512, 4096]⟩
abbrev S512x1024 : Shape := ⟨2, ![512, 1024]⟩
abbrev S64x64x1024 : Shape := ⟨3, ![64, 64, 1024]⟩

abbrev nBuf : Space → Nat
  | .hbm => 21
  | .vmem => 7
  | .smem => 0
  | _ => 0

abbrev bufTy : (tb : Table) → Fin (tcTables nBuf tb) → BufTy
  | .hbm, ⟨0, _⟩ => ⟨S64x64x4096, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S4096x1024, .bf16⟩
  | .hbm, ⟨16, _⟩ => ⟨S4096x4096, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S64x64x1024, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S64x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024 : S_.BroadcastsInDim S1024 (![] : Fin 0 → Fin S1024.rank)
  bitsLt_bf16_f32 : FTy.bits .bf16 < FTy.bits .f32
  shapeCasts_S64x64x4096_S4096x4096 : S64x64x4096.ShapeCasts S4096x4096
  shapeCasts_S1024_S1x1024 : S1024.ShapeCasts S1x1024
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S4096x1024_S64x64x1024 : S4096x1024.ShapeCasts S64x64x1024
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v8) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x64x4096 : Shape := ⟨3, ![64, 64, 4096]⟩
abbrev S4096x1024 : Shape := ⟨2, ![4096, 1024]⟩
abbrev S1024 : Shape := ⟨1, ![1024]⟩
abbrev S_ : Shape := ⟨0, ![]⟩
abbrev S4096x4096 : Shape := ⟨2, ![4096, 4096]⟩
abbrev S1x1024 : Shape := ⟨2, ![1, 1024]⟩
abbrev S256x2048 : Shape := ⟨2, ![256, 2048]⟩
abbrev S2048x512 : Shape := ⟨2, ![2048, 512]⟩
abbrev S1x512 : Shape := ⟨2, ![1, 512]⟩
abbrev S256x512 : Shape := ⟨2, ![256, 512]⟩
abbrev S64x64x1024 : Shape := ⟨3, ![64, 64, 1024]⟩

abbrev nBuf : Space → Nat
  | .hbm => 20
  | .vmem => 11
  | .smem => 0
  | _ => 0

abbrev bufTy : (tb : Table) → Fin (tcTables nBuf tb) → BufTy
  | .hbm, ⟨0, _⟩ => ⟨S64x64x4096, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S4096x4096, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S64x64x1024, .f32⟩
  | .local _ .vmem, ⟨0, _⟩ => ⟨S256x2048, .f32⟩
  | .local _ .vmem, ⟨1, _⟩ => ⟨S256x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | _, _ => ⟨S64x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S1024 : S_.BroadcastsInDim S1024 (![] : Fin 0 → Fin S1024.rank)
  shapeCasts_S64x64x4096_S4096x4096 : S64x64x4096.ShapeCasts S4096x4096
  shapeCasts_S1024_S1x1024 : S1024.ShapeCasts S1x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S4096x1024_S64x64x1024 : S4096x1024.ShapeCasts S64x64x1024
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x4096.size a
  hwx0_0 : ∀ i : grid0.Coords, EltTy.bits .f32 = 32 ∨ (Rect.block (s := S4096x4096) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x1024.size a
  hwx0_1 : ∀ i : grid0.Coords, EltTy.bits .f32 = 32 ∨ (Rect.block (s := S4096x1024) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S4096x1024.size a
  hwx0_4 : ∀ i : grid0.Coords, EltTy.bits .f32 = 32 ∨ (Rect.block (s := S4096x1024) S256x512.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v7) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.KernelPayload.lean ====
/-
  The row-block body's stored value, entry by entry.

  The body multiplies a [512, 4096] block of rows by the whole [4096, 1024] weight matrix into a zero
  accumulator, scales column q by the row S(0, q), adds the row T(0, q), and clamps below at zero. Over the
  extended reals rounding an operand to a narrower format is the identity, and the matrix product into zero
  is the plain sum over the 4096 inner positions, so entry (p, q) of the stored block is
  max ((Σ_k x(p,k) · w(k,q)) · S(0,q) + T(0,q), 0).
-/
import proofs.«152921_g2000205649556330_pallasbulk_974_2_alg».proof.Proof.Gen.KernelIdeal.Skeleton
import proofs.«152921_g2000205649556330_pallasbulk_974_2_alg».proof.Proof.LibDense
import Idealize.ShloMosaic.Lib.ValueLayout
import Idealize.ShloMosaic.Lib.Pipeline.Value

noncomputable section

open scoped BigOperators

namespace Cert.KernelIdeal.Bridge

open Idealize.ShloMosaic Idealize.ShloMosaic.ValueIdx Cert.KernelIdeal Cert.KernelIdeal.Gen

/-- The product's dimension numbers: rows × inner times inner × columns. -/
abbrev D := dot_S512x4096_S4096x1024_S512x1024_1_0_0_1_n_n

theorem D_rank : D.contr.rank = 1 := by decide
theorem D_size : D.contr.size ⟨0, by decide⟩ = 4096 := by decide
theorem D_l0 (i : S512x1024.Idx) (q : D.contr.Idx) : (D.lhsIdx i q 0).val = (i 0).val := by
  simp [DotDims.lhsIdx, D, dot_S512x4096_S4096x1024_S512x1024_1_0_0_1_n_n]; rfl
theorem D_l1 (i : S512x1024.Idx) (q : D.contr.Idx) : (D.lhsIdx i q 1).val = (q ⟨0, by decide⟩).val := by
  simp [DotDims.lhsIdx, D, dot_S512x4096_S4096x1024_S512x1024_1_0_0_1_n_n]; rfl
theorem D_r0 (i : S512x1024.Idx) (q : D.contr.Idx) : (D.rhsIdx i q 0).val = (q ⟨0, by decide⟩).val := by
  simp [DotDims.rhsIdx, D, dot_S512x4096_S4096x1024_S512x1024_1_0_0_1_n_n]; rfl
theorem D_r1 (i : S512x1024.Idx) (q : D.contr.Idx) : (D.rhsIdx i q 1).val = (i 1).val := by
  simp [DotDims.rhsIdx, D, dot_S512x4096_S4096x1024_S512x1024_1_0_0_1_n_n]; rfl

/-- The product into the zero accumulator at entry (p, q): the sum over the inner positions. -/
theorem product_apply (a : FVec Ideal S512x4096 .bf16) (b : FVec Ideal S4096x1024 .bf16) (p : Fin 512) (q : Fin 1024) :
    FloatOps.matmul D none a b (constant (F := Ideal) S512x1024 .f32 0x00000000#32) (ix2 p q)
      = ∑ k : Fin 4096, a (ix2 p k) * b (ix2 k q) :=
  Cert.LibDense.matmul_zero_apply D D_rank D_size D_l0 D_l1 D_r0 D_r1 none a b p q

/-- Entry (p, q) of the block the body stores. -/
theorem pay_apply (x0 : Vec Ideal S512x4096 .f32) (x1 : Vec Ideal S4096x1024 .bf16) (x2 x3 : Vec Ideal S1x1024 .f32)
    (p : Fin 512) (q : Fin 1024) :
    k0_pay1 (F := Ideal) x0 x1 x2 x3 (ix2 p q)
      = max ((∑ k : Fin 4096, x0 (ix2 p k) * x1 (ix2 k q)) * x2 (ix2 (0 : Fin 1) q) + x3 (ix2 (0 : Fin 1) q))
          (Ideal.ofBits .f32 0x00000000#32) := by
  unfold k0_pay1
  simp only [shapeCast_self]
  show max (FloatOps.matmul D none (truncf FTy.bf16 x0 bitsLt_bf16_f32) x1 (constant (F := Ideal) S512x1024 .f32 0x00000000#32) (ix2 p q)
        * broadcastTo S512x1024 x2 broadcasts_S1x1024_S512x1024 (ix2 p q)
      + broadcastTo S512x1024 x3 broadcasts_S1x1024_S512x1024 (ix2 p q)) (Ideal.ofBits .f32 0x00000000#32) = _
  rw [product_apply, broadcastTo_1b_ab_apply, broadcastTo_1b_ab_apply]
  rfl

end Cert.KernelIdeal.Bridge

end
-- ==== Proof.Layer.lean ====
/-
  The layer both programs compute, as one function of its operands.

  For a row matrix X [4096, 4096], a weight matrix W [4096, 1024] and two rows S, T [1, 1024], entry
  (p, q) of the layer is  max ((Σ_k X(p,k) · W(k,q)) · S(0,q) + T(0,q), 0)  over the extended reals.

  The inner product over the 4096 columns of X splits into its first and second halves: addition of
  extended reals is commutative and associative with neutral 0, so
  Σ_{k<4096} f k = (0 + Σ_{k<2048} f k) + Σ_{k<2048} f (2048 + k), with no finiteness needed.
-/
import Idealize.ShloMosaic.Lib.ValueIdx
import Idealize.ShloMosaic.PureOps.Ideal.Laws

noncomputable section

open scoped BigOperators

namespace Cert.Layer

open Idealize.ShloMosaic Idealize.ShloMosaic.ValueIdx

/-- Entry (p, q) of the layer: the row-by-column product, scaled and shifted per column, clamped below at zero. -/
def entry (X : (⟨2, ![4096, 4096]⟩ : Shape).Idx → EReal) (W : (⟨2, ![4096, 1024]⟩ : Shape).Idx → EReal)
    (S T : (⟨2, ![1, 1024]⟩ : Shape).Idx → EReal) (p : Fin 4096) (q : Fin 1024) : EReal :=
  max ((∑ k : Fin 4096, X (ix2 p k) * W (ix2 k q)) * S (ix2 (0 : Fin 1) q) + T (ix2 (0 : Fin 1) q))
    (Ideal.ofBits .f32 0x00000000#32)

/-- The layer as an array [4096, 1024]. -/
def layer (X : (⟨2, ![4096, 4096]⟩ : Shape).Idx → EReal) (W : (⟨2, ![4096, 1024]⟩ : Shape).Idx → EReal)
    (S T : (⟨2, ![1, 1024]⟩ : Shape).Idx → EReal) : (⟨2, ![4096, 1024]⟩ : Shape).Idx → EReal :=
  fun i => entry X W S T (i 0) (i 1)

theorem layer_apply (X : (⟨2, ![4096, 4096]⟩ : Shape).Idx → EReal) (W : (⟨2, ![4096, 1024]⟩ : Shape).Idx → EReal)
    (S T : (⟨2, ![1, 1024]⟩ : Shape).Idx → EReal) (p : Fin 4096) (q : Fin 1024) :
    layer X W S T (ix2 p q) = entry X W S T p q := rfl

/-- A sum over 4096 terms is the zero plus the sum of its first 2048 terms, plus the sum of its last 2048. -/
theorem sum_halves (z : EReal) (hz : z = 0) (f : Fin 4096 → EReal) :
    ∑ k : Fin 4096, f k
      = (z + ∑ k : Fin 2048, f ⟨k.val, by omega⟩) + ∑ k : Fin 2048, f ⟨2048 + k.val, by omega⟩ := by
  subst hz
  rw [zero_add]
  exact Fin.sum_univ_add (a := 2048) (b := 2048) f

end Cert.Layer

end
-- ==== Proof.KernelValue.lean ====
/-
  What the row-block program's result array ends holding.

  Grid point t (of 8) reads rows 512·t … 512·t + 511 of the row matrix X — all 4096 columns —, the whole
  weight matrix and the two rows S and T, and writes back rows 512·t … 512·t + 511 of the result. Entry (p, q) of
  that block is the layer's entry (512·t + p, q). The eight blocks tile the 4096 rows (row r lies in block
  r / 512), so after the run the array is the layer of the arrays the region was entered with.
-/
import proofs.«152921_g2000205649556330_pallasbulk_974_2_alg».proof.Proof.Gen.KernelIdeal.Frame
import proofs.«152921_g2000205649556330_pallasbulk_974_2_alg».proof.Proof.KernelPayload
import proofs.«152921_g2000205649556330_pallasbulk_974_2_alg».proof.Proof.Layer
import Idealize.ShloMosaic.Lib.Pipeline.Value

noncomputable section

open scoped BigOperators

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: the row blocks of X and of the result move with the point, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of X at point t is rows 512·t … of X. -/
theorem rows_apply (c : Dev nD) (t : Fin cfg0.N) (x : S512x4096.Idx) (k : S4096x4096.Idx)
    (hk0 : (k 0).val = 512 * t.val + (x 0).val) (hk1 : (k 1).val = (x 1).val) :
    (iblk m c 0 t : Vec Ideal S512x4096 .f32) x = (V m c main_v8 : S4096x4096.Idx → EReal) k := by
  obtain ⟨e0, e1, -⟩ := idx_facts t
  unfold iblk
  rw [View.read_apply]
  show V m c main_v8 _ = V m c main_v8 k
  refine congrArg (V m c main_v8) ?_
  funext a
  apply Fin.ext
  match a with
  | ⟨0, _⟩ => show win0_0.index t 0 * 512 + 1 * (x 0).val = (k 0).val; rw [e0, hk0]; omega
  | ⟨1, _⟩ => show win0_0.index t 1 * 4096 + 1 * (x 1).val = (k 1).val; rw [e1, hk1]; omega

/-- The weight block at every point is the whole weight matrix. -/
theorem weights_apply (c : Dev nD) (t : Fin cfg0.N) (x : S4096x1024.Idx) :
    (iblk m c 1 t : Vec Ideal S4096x1024 .bf16) x = (V m c main_v7 : S4096x1024.Idx → EReal) x := by
  obtain ⟨-, -, e0, e1, -⟩ := idx_facts t
  unfold iblk
  rw [View.read_apply]
  show V m c main_v7 _ = V m c main_v7 x
  refine congrArg (V m c main_v7) ?_
  funext a
  apply Fin.ext
  match a with
  | ⟨0, _⟩ => show win0_1.index t 0 * 4096 + 1 * (x 0).val = (x 0).val; rw [e0]; omega
  | ⟨1, _⟩ => show win0_1.index t 1 * 1024 + 1 * (x 1).val = (x 1).val; rw [e1]; omega

/-- The scale block at every point is the whole row S. -/
theorem scale_apply (c : Dev nD) (t : Fin cfg0.N) (x : S1x1024.Idx) :
    (iblk m c 2 t : Vec Ideal S1x1024 .f32) x = (V m c main_v9 : S1x1024.Idx → EReal) x := by
  obtain ⟨-, -, -, -, e0, e1, -⟩ := idx_facts t
  unfold iblk
  rw [View.read_apply]
  show V m c main_v9 _ = V m c main_v9 x
  refine congrArg (V m c main_v9) ?_
  funext a
  apply Fin.ext
  match a with
  | ⟨0, _⟩ => show win0_2.index t 0 * 1 + 1 * (x 0).val = (x 0).val; rw [e0]; omega
  | ⟨1, _⟩ => show win0_2.index t 1 * 1024 + 1 * (x 1).val = (x 1).val; rw [e1]; omega

/-- The shift block at every point is the whole row T. -/
theorem shift_apply (c : Dev nD) (t : Fin cfg0.N) (x : S1x1024.Idx) :
    (iblk m c 3 t : Vec Ideal S1x1024 .f32) x = (V m c main_v10 : S1x1024.Idx → EReal) x := by
  obtain ⟨-, -, -, -, -, -, e0, e1, -⟩ := idx_facts t
  unfold iblk
  rw [View.read_apply]
  show V m c main_v10 _ = V m c main_v10 x
  refine congrArg (V m c main_v10) ?_
  funext a
  apply Fin.ext
  match a with
  | ⟨0, _⟩ => show win0_3.index t 0 * 1 + 1 * (x 0).val = (x 0).val; rw [e0]; omega
  | ⟨1, _⟩ => show win0_3.index t 1 * 1024 + 1 * (x 1).val = (x 1).val; rw [e1]; omega

/-- Entry j of the stored block, for a body run on blocks that read the arrays X, W, S, T as point r does, is the
    layer's entry at row 512·r + j₀, column j₁. -/
theorem block_entry (X : S4096x4096.Idx → EReal) (W : S4096x1024.Idx → EReal) (S T : S1x1024.Idx → EReal)
    (x0 : Vec Ideal S512x4096 .f32) (x1 : Vec Ideal S4096x1024 .bf16) (x2 x3 : Vec Ideal S1x1024 .f32)
    (r : ℕ) (j : S512x1024.Idx) (i : S4096x1024.Idx)
    (hi0 : (i 0).val = 512 * r + (j 0).val) (hi1 : (i 1).val = (j 1).val)
    (h0 : ∀ (x : S512x4096.Idx) (k : S4096x4096.Idx), (k 0).val = 512 * r + (x 0).val → (k 1).val = (x 1).val → x0 x = X k)
    (h1 : ∀ x, x1 x = W x) (h2 : ∀ x, x2 x = S x) (h3 : ∀ x, x3 x = T x) :
    k0_pay1 (F := Ideal) x0 x1 x2 x3 j = Cert.Layer.layer X W S T i := by
  obtain ⟨p, q, rfl⟩ : ∃ (p : Fin 512) (q : Fin 1024), j = ix2 p q := ⟨j 0, j 1, eq_ix2 j⟩
  obtain ⟨P, Q, rfl⟩ : ∃ (P : Fin 4096) (Q : Fin 1024), i = ix2 P Q := ⟨i 0, i 1, eq_ix2 i⟩
  have hQ : Q = q := Fin.ext hi1
  subst hQ
  rw [pay_apply, Cert.Layer.layer_apply]
  unfold Cert.Layer.entry
  rw [h2, h3]
  refine congrArg (fun s => max (s * S (ix2 (0 : Fin 1) Q) + T (ix2 (0 : Fin 1) Q)) (Ideal.ofBits .f32 0x00000000#32)) ?_
  refine Finset.sum_congr rfl fun k _ => ?_
  rw [h0 (ix2 p k) (ix2 P k) hi0 rfl, h1]

/-- What point t writes back is block t of the layer of the arrays the region was entered with. -/
theorem flushed_eq (c : Dev nD) (t : Fin cfg0.N) :
    (dats m 0 c).flushed 4 t = ((cfg0.win 4).blk t).view.read (Elt Ideal)
      (Cert.Layer.layer (V m c main_v8) (V m c main_v7) (V m c main_v9) (V m c main_v10)) := by
  show (cfg0.win 4).cut (grid0.coords t) ((dats m 0 c).after 4 t) = _
  rw [after0_4]
  unfold out0_4
  rw [View.canon_unit_zero hz]
  simp only [View.ld_unit_zero (S := S512x4096) hz, View.ld_unit_zero (S := S4096x1024) hz, View.ld_unit_zero (S := S1x1024) hz]
  obtain ⟨-, -, -, -, -, -, -, -, e0, e1⟩ := idx_facts t
  funext j
  show k0_pay1 (F := Ideal) (iblk m c 0 t) (iblk m c 1 t) (iblk m c 2 t) (iblk m c 3 t) j
    = Cert.Layer.layer (V m c main_v8) (V m c main_v7) (V m c main_v9) (V m c main_v10) (((cfg0.win 4).blk t).view.emb j)
  refine block_entry (V m c main_v8) (V m c main_v7) (V m c main_v9) (V m c main_v10)
    (iblk m c 0 t) (iblk m c 1 t) (iblk m c 2 t) (iblk m c 3 t) t.val j (((cfg0.win 4).blk t).view.emb j) ?_ ?_
    (fun x k hk0 hk1 => rows_apply m c t x k hk0 hk1) (weights_apply m c t) (scale_apply m c t) (shift_apply m c t)
  · show win0_4.index t 0 * 512 + 1 * (j 0).val = 512 * t.val + (j 0).val
    rw [e0]; omega
  · show win0_4.index t 1 * 1024 + 1 * (j 1).val = (j 1).val
    rw [e1]; omega

/-- An index of the result array is in point t's block iff each coordinate is in the block's range on its axis. -/
theorem mem_blk (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v11).slice (win0_4.rect t)).set ↔ _
  rw [View.set_slice_whole, Rect.mem_set_unit]
  exact Iff.rfl

/-- The result array after the run: the layer of the arrays the region was entered with. -/
theorem final (c : Dev nD) : (dats m 0 c).arrAt 4 cfg0.N
    = Cert.Layer.layer (V m c main_v8) (V m c main_v7) (V m c main_v9) (V m c main_v10) :=
  (dats m 0 c).arrAt_eq_of_cover 4 _ (fun t _ => flushed_eq m c t) fun i => by
    have h0 : (i 0).val < 4096 := (i 0).isLt
    have h1 : (i 1).val < 1024 := (i 1).isLt
    have hN : cfg0.N = 8 := N_0
    refine ⟨⟨(i 0).val / 512, by rw [hN]; omega⟩, flush0_4 _, ?_⟩
    rw [mem_blk]
    obtain ⟨-, -, -, -, -, -, -, -, e0, e1⟩ := idx_facts ⟨(i 0).val / 512, by rw [hN]; omega⟩
    intro a
    match a with
    | ⟨0, _⟩ =>
      show win0_4.index _ 0 * 512 ≤ (i 0).val ∧ (i 0).val < win0_4.index _ 0 * 512 + 512
      rw [e0]; dsimp only; omega
    | ⟨1, _⟩ =>
      show win0_4.index _ 1 * 1024 ≤ (i 1).val ∧ (i 1).val < win0_4.index _ 1 * 1024 + 1024
      rw [e1]; omega

end Cert.KernelIdeal.Bridge

end
-- ==== Proof.KernelRun.lean ====
/-
  The row-block program's run, read: its result is the layer, re-viewed as [64, 64, 1024].

  Before the region the program re-views x [64, 64, 4096] as the row matrix [4096, 4096], rounds the weights to
  the narrower format, and forms the per-column scale S = gamma · rsqrt (var + eps) and shift
  T = (b − mean) · S + beta as rows [1, 1024]; after the region it re-views the [4096, 1024] result as
  [64, 64, 1024]. The region's array ends at the layer of those operands.
-/
import proofs.«152921_g2000205649556330_pallasbulk_974_2_alg».proof.Proof.KernelValue
import Idealize.ShloMosaic.Lib.StableHlo.Run

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The program's result: the layer of the region-entry operands, re-viewed as [64, 64, 1024]. -/
def result (c : Dev nD) : Buf (Elt Ideal) ((c : Thread nD τ).loc main_v12) :=
  shapeCast S64x64x1024 (Cert.Layer.layer (V m c main_v8) (V m c main_v7) (V m c main_v9) (V m c main_v10))
    shapeCasts_S4096x1024_S64x64x1024

/-- The line after the region re-views the region's array. -/
theorem tail_eq (c : Dev nD) :
    Pipeline.afterTail₀ cfgs (dats m) 0 (V0 m) [hostOps1] c main_v12 = result m c := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.tc.devRef main_v11)
      = Cert.Layer.layer (V m c main_v8) (V m c main_v7) (V m c main_v9) (V m c main_v10) :=
    (Pipeline.withArrays_arr spec0 launch0.win.arr_inj c _ _ 4).trans (final m c)
  rw [e]
  rfl

/-- The run, read: the result at the re-viewed layer, every argument unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-! ### The operands the region is entered with, as terms of the arguments -/

/-- The row matrix: x re-viewed as [4096, 4096]. -/
theorem V_rows (c : Dev nD) : (V m c main_v8 : S4096x4096.Idx → EReal)
    = shapeCast S4096x4096 (m ((c.tc : Thread nD τ).loc main_arg0)) shapeCasts_S64x64x4096_S4096x4096 := by
  show StableHlo.after hostOps0 (fun b => m (c, b)) (Proc.devRef .tc main_v8) = _
  after_results
  rfl

/-- The weights, rounded to the narrower format: over the extended reals, the weights themselves. -/
theorem V_weights (c : Dev nD) : (V m c main_v7 : S4096x1024.Idx → EReal) = m ((c.tc : Thread nD τ).loc main_arg1) := by
  show StableHlo.after hostOps0 (fun b => m (c, b)) (Proc.devRef .tc main_v7) = _
  after_results
  rfl

/-- The per-column scale gamma · rsqrt (var + eps), as a vector [1024]. -/
def scaleOf (gamma var : FVec Ideal S1024 .f32) : FVec Ideal S1024 .f32 :=
  mulf gamma (Host.rsqrt (F := Ideal) (addf var (broadcastInDim S1024 ![] bcast_S_S1024 (constant (F := Ideal) S_ .f32 0x3727C5AC#32))))

/-- The per-column shift (b − mean) · scale + beta, as a vector [1024]. -/
def shiftOf (b mean beta s : FVec Ideal S1024 .f32) : FVec Ideal S1024 .f32 :=
  addf (mulf (subf b mean) s) beta

/-- The scale row the region is entered with. -/
theorem V_scale (c : Dev nD) : (V m c main_v9 : S1x1024.Idx → EReal)
    = shapeCast S1x1024 (scaleOf (m ((c.tc : Thread nD τ).loc main_arg3)) (m ((c.tc : Thread nD τ).loc main_arg6))) shapeCasts_S1024_S1x1024 := by
  show StableHlo.after hostOps0 (fun b => m (c, b)) (Proc.devRef .tc main_v9) = _
  after_results
  rfl

/-- The shift row the region is entered with. -/
theorem V_shift (c : Dev nD) : (V m c main_v10 : S1x1024.Idx → EReal)
    = shapeCast S1x1024 (shiftOf (m ((c.tc : Thread nD τ).loc main_arg2)) (m ((c.tc : Thread nD τ).loc main_arg5))
        (m ((c.tc : Thread nD τ).loc main_arg4))
        (scaleOf (m ((c.tc : Thread nD τ).loc main_arg3)) (m ((c.tc : Thread nD τ).loc main_arg6)))) shapeCasts_S1024_S1x1024 := by
  show StableHlo.after hostOps0 (fun b => m (c, b)) (Proc.devRef .tc main_v10) = _
  after_results
  rfl

end Cert.KernelIdeal.Bridge

end
-- ==== Proof.RefPieces.lean ====
/-
  What each of the body's two cases leaves behind, as values.

  At the first inner-dimension step of an output tile the body overwrites the carried accumulator with zero and then
  with zero + (the step's product): the accumulator ends at the update of the zero tile. At the second step it
  updates the accumulator it finds and stores the clamped affine image of the updated accumulator into the output tile.
-/
import proofs.«152921_g2000205649556330_pallasbulk_974_2_alg».proof.Proof.Gen.ReferenceIdeal.Frame
import Idealize.ShloMosaic.Lib.Pipeline.Value
import Idealize.ShloMosaic.Lib.Tactic

noncomputable section

namespace Cert.ReferenceIdeal.Bridge

open Idealize.ShloMosaic Idealize.ShloMosaic.TcCoe Idealize.SL.Sem
open Cert.ReferenceIdeal Cert.ReferenceIdeal.Gen

variable {F : FTy → Type} [FloatOps F]

theorem hz : (![0, 0] : Fin 2 → Nat) = fun _ => 0 := funext fun a => by fin_cases a <;> rfl

/-- The first step leaves the accumulator at the update of the zero tile by the step's blocks. -/
theorem scratch_first (c : Dev nD) (i : grid0.Coords) (a3 : Memref sig .tc .vmem S256x2048 .f32) (h3 : a3.IsWhole)
    (a4 : Memref sig .tc .vmem S2048x512 .f32) (h4 : a4.IsWhole) (a5 : Memref sig .tc .vmem S1x512 .f32) (h5 : a5.IsWhole)
    (a6 : Memref sig .tc .vmem S1x512 .f32) (h6 : a6.IsWhole) (a7 : Memref sig .tc .vmem S256x512 .f32) (h7 : a7.IsWhole)
    (a8 : Memref sig .tc .vmem S256x512 .f32) (h8 : a8.IsWhole) (hc0 : cond0_0 i) (hc1 : ¬cond0_1 i)
    (x0 : Vec F S256x2048 .f32) (x1 : Vec F S2048x512 .f32) (x2 x3 : Vec F S1x512 .f32) :
    sout0_A_0 c i a3 h3 a4 h4 a5 h5 a6 h6 a7 h7 a8 h8 hc0 hc1 x0 x1 x2 x3 = k0_pay2 k0_pay1 x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  try sl_unfold_words
  rw [View.canon_cons_unit_zero (S := S256x512) hz, View.readCov_unit_zero (S := S256x512) _ hz]
  simp only [View.readAt_eq_ld, h3.read_unread, h4.read_unread, View.ld_unit_zero (S := S256x2048) hz,
    View.ld_unit_zero (S := S2048x512) hz]

/-- The second step stores into the output tile the clamped affine image of the accumulator it found, updated by the step's blocks. -/
theorem out_second (c : Dev nD) (i : grid0.Coords) (a3 : Memref sig .tc .vmem S256x2048 .f32) (h3 : a3.IsWhole)
    (a4 : Memref sig .tc .vmem S2048x512 .f32) (h4 : a4.IsWhole) (a5 : Memref sig .tc .vmem S1x512 .f32) (h5 : a5.IsWhole)
    (a6 : Memref sig .tc .vmem S1x512 .f32) (h6 : a6.IsWhole) (a7 : Memref sig .tc .vmem S256x512 .f32) (h7 : a7.IsWhole)
    (a8 : Memref sig .tc .vmem S256x512 .f32) (h8 : a8.IsWhole) (hc0 : ¬cond0_0 i) (hc1 : cond0_1 i)
    (x0 : Vec F S256x2048 .f32) (x1 : Vec F S2048x512 .f32) (x2 x3 : Vec F S1x512 .f32) (xs0 : Vec F S256x512 .f32) :
    out0_B_4 c i a3 h3 a4 h4 a5 h5 a6 h6 a7 h7 a8 h8 hc0 hc1 x0 x1 x2 x3 xs0 = k0_pay3 (k0_pay2 xs0 x0 x1) x2 x3 := by
  unfold out0_B_4
  rw [View.read_writes_eq_canon _ _ _ (cover0_B_4 c i a3 h3 a4 h4 a5 h5 a6 h6 a7 h7 a8 h8 hc0 hc1 x0 x1 x2 x3 xs0)]
  unfold kernelRun0_B
  dsimp only
  try sl_unfold_words
  rw [View.canon_unit_zero hz, View.readCov_unit_zero (S := S256x512) _ hz]
  simp only [View.readAt_eq_ld, h3.read_unread, h4.read_unread, h5.read_unread, h6.read_unread, h8.read_unread,
    View.ld_unit_zero (S := S256x2048) hz, View.ld_unit_zero (S := S2048x512) hz, View.ld_unit_zero (S := S1x512) hz,
    View.ld_unit_zero (S := S256x512) hz]

end Cert.ReferenceIdeal.Bridge

end
-- ==== Proof.RefPayload.lean ====
/-
  The tiled program's three stored values, entry by entry, and their composition over one output tile.

  The body carries an accumulator tile [256, 512] across the two inner-dimension steps of an output tile: the
  first step stores the zero tile, then accumulator + (a [256, 2048] block of rows times a [2048, 512] block of
  weights, into zero); the second step adds its own product and then stores
  max (accumulator · S + T, 0) with S and T the tile's 512 columns of the scale and shift rows.
  Over the extended reals each product into zero is the plain sum over 2048 inner positions; the two halves
  together with the initial zero are the sum over all 4096 positions, so the stored tile is a tile of the layer.
-/
import proofs.«152921_g2000205649556330_pallasbulk_974_2_alg».proof.Proof.Gen.ReferenceIdeal.Skeleton
import proofs.«152921_g2000205649556330_pallasbulk_974_2_alg».proof.Proof.LibDense
import proofs.«152921_g2000205649556330_pallasbulk_974_2_alg».proof.Proof.Layer
import Idealize.ShloMosaic.Lib.ValueLayout
import Idealize.ShloMosaic.Lib.Pipeline.Value

noncomputable section

open scoped BigOperators

namespace Cert.ReferenceIdeal.Bridge

open Idealize.ShloMosaic Idealize.ShloMosaic.ValueIdx Cert.ReferenceIdeal Cert.ReferenceIdeal.Gen

/-- The product's dimension numbers: rows × inner times inner × columns. -/
abbrev D := dot_S256x2048_S2048x512_S256x512_1_0_0_1_n_n

theorem D_rank : D.contr.rank = 1 := by decide
theorem D_size : D.contr.size ⟨0, by decide⟩ = 2048 := by decide
theorem D_l0 (i : S256x512.Idx) (q : D.contr.Idx) : (D.lhsIdx i q 0).val = (i 0).val := by
  simp [DotDims.lhsIdx, D, dot_S256x2048_S2048x512_S256x512_1_0_0_1_n_n]; rfl
theorem D_l1 (i : S256x512.Idx) (q : D.contr.Idx) : (D.lhsIdx i q 1).val = (q ⟨0, by decide⟩).val := by
  simp [DotDims.lhsIdx, D, dot_S256x2048_S2048x512_S256x512_1_0_0_1_n_n]; rfl
theorem D_r0 (i : S256x512.Idx) (q : D.contr.Idx) : (D.rhsIdx i q 0).val = (q ⟨0, by decide⟩).val := by
  simp [DotDims.rhsIdx, D, dot_S256x2048_S2048x512_S256x512_1_0_0_1_n_n]; rfl
theorem D_r1 (i : S256x512.Idx) (q : D.contr.Idx) : (D.rhsIdx i q 1).val = (i 1).val := by
  simp [DotDims.rhsIdx, D, dot_S256x2048_S2048x512_S256x512_1_0_0_1_n_n]; rfl

/-- The product into the zero accumulator at entry (p, q): the sum over the 2048 inner positions. -/
theorem product_apply (a : FVec Ideal S256x2048 .f32) (b : FVec Ideal S2048x512 .f32) (p : Fin 256) (q : Fin 512) :
    FloatOps.matmul D none a b (constant (F := Ideal) S256x512 .f32 0x00000000#32) (ix2 p q)
      = ∑ k : Fin 2048, a (ix2 p k) * b (ix2 k q) :=
  Cert.LibDense.matmul_zero_apply D D_rank D_size D_l0 D_l1 D_r0 D_r1 none a b p q

/-- The tile the first step stores first: zero everywhere. -/
theorem zero_apply (j : S256x512.Idx) : k0_pay1 (F := Ideal) j = Ideal.ofBits .f32 0x00000000#32 := by
  unfold k0_pay1
  simp only [shapeCast_self]
  rfl

/-- A step's accumulator update at entry (p, q). -/
theorem acc_apply (a : Vec Ideal S256x512 .f32) (x0 : Vec Ideal S256x2048 .f32) (x1 : Vec Ideal S2048x512 .f32)
    (p : Fin 256) (q : Fin 512) :
    k0_pay2 (F := Ideal) a x0 x1 (ix2 p q) = a (ix2 p q) + ∑ k : Fin 2048, x0 (ix2 p k) * x1 (ix2 k q) := by
  unfold k0_pay2
  simp only [shapeCast_self]
  show a (ix2 p q) + FloatOps.matmul D none x0 x1 (constant (F := Ideal) S256x512 .f32 0x00000000#32) (ix2 p q) = _
  rw [product_apply]

/-- The tile the second step stores into the output, at entry (p, q). -/
theorem epi_apply (a : Vec Ideal S256x512 .f32) (x2 x3 : Vec Ideal S1x512 .f32) (p : Fin 256) (q : Fin 512) :
    k0_pay3 (F := Ideal) a x2 x3 (ix2 p q)
      = max (a (ix2 p q) * x2 (ix2 (0 : Fin 1) q) + x3 (ix2 (0 : Fin 1) q)) (Ideal.ofBits .f32 0x00000000#32) := by
  unfold k0_pay3
  simp only [shapeCast_self]
  show max (a (ix2 p q) * broadcastTo S256x512 x2 broadcasts_S1x512_S256x512 (ix2 p q)
      + broadcastTo S256x512 x3 broadcasts_S1x512_S256x512 (ix2 p q)) (Ideal.ofBits .f32 0x00000000#32) = _
  rw [broadcastTo_1b_ab_apply, broadcastTo_1b_ab_apply]

/-- Entry j of the output tile stored after the two steps, for steps run on blocks that read the arrays X, W, S, T
    as the two points of output tile (r, s) do — the first step inner positions 0 … 2047, the second 2048 … 4095 —,
    is the layer's entry at row 256·r + j₀, column 512·s + j₁. -/
theorem tile_entry (X : S4096x4096.Idx → EReal) (W : S4096x1024.Idx → EReal) (S T : S1x1024.Idx → EReal)
    (xa0 xb0 : Vec Ideal S256x2048 .f32) (xa1 xb1 : Vec Ideal S2048x512 .f32) (x2 x3 : Vec Ideal S1x512 .f32)
    (r s : ℕ) (j : S256x512.Idx) (i : S4096x1024.Idx)
    (hi0 : (i 0).val = 256 * r + (j 0).val) (hi1 : (i 1).val = 512 * s + (j 1).val)
    (ha0 : ∀ (x : S256x2048.Idx) (k : S4096x4096.Idx), (k 0).val = 256 * r + (x 0).val → (k 1).val = (x 1).val → xa0 x = X k)
    (ha1 : ∀ (x : S2048x512.Idx) (k : S4096x1024.Idx), (k 0).val = (x 0).val → (k 1).val = 512 * s + (x 1).val → xa1 x = W k)
    (hb0 : ∀ (x : S256x2048.Idx) (k : S4096x4096.Idx), (k 0).val = 256 * r + (x 0).val → (k 1).val = 2048 + (x 1).val → xb0 x = X k)
    (hb1 : ∀ (x : S2048x512.Idx) (k : S4096x1024.Idx), (k 0).val = 2048 + (x 0).val → (k 1).val = 512 * s + (x 1).val → xb1 x = W k)
    (h2 : ∀ (x : S1x512.Idx) (k : S1x1024.Idx), (k 1).val = 512 * s + (x 1).val → x2 x = S k)
    (h3 : ∀ (x : S1x512.Idx) (k : S1x1024.Idx), (k 1).val = 512 * s + (x 1).val → x3 x = T k) :
    k0_pay3 (F := Ideal) (k0_pay2 (k0_pay2 k0_pay1 xa0 xa1) xb0 xb1) x2 x3 j = Cert.Layer.layer X W S T i := by
  obtain ⟨p, q, rfl⟩ : ∃ (p : Fin 256) (q : Fin 512), j = ix2 p q := ⟨j 0, j 1, eq_ix2 j⟩
  obtain ⟨P, Q, rfl⟩ : ∃ (P : Fin 4096) (Q : Fin 1024), i = ix2 P Q := ⟨i 0, i 1, eq_ix2 i⟩
  rw [epi_apply, acc_apply, acc_apply, zero_apply, Cert.Layer.layer_apply]
  unfold Cert.Layer.entry
  rw [h2 (ix2 (0 : Fin 1) q) (ix2 (0 : Fin 1) Q) hi1, h3 (ix2 (0 : Fin 1) q) (ix2 (0 : Fin 1) Q) hi1,
    Cert.Layer.sum_halves (Ideal.ofBits .f32 0x00000000#32) Ideal.ofBits_zero_f32]
  refine congrArg (fun s => max (s * S (ix2 (0 : Fin 1) Q) + T (ix2 (0 : Fin 1) Q)) (Ideal.ofBits .f32 0x00000000#32)) ?_
  refine congrArg₂ (· + ·) (congrArg (Ideal.ofBits .f32 0x00000000#32 + ·) (Finset.sum_congr rfl fun k _ => ?_))
    (Finset.sum_congr rfl fun k _ => ?_)
  · rw [ha0 (ix2 p k) (ix2 P ⟨k.val, by omega⟩) hi0 rfl, ha1 (ix2 k q) (ix2 ⟨k.val, by omega⟩ Q) rfl hi1]
  · rw [hb0 (ix2 p k) (ix2 P ⟨2048 + k.val, by omega⟩) hi0 rfl, hb1 (ix2 k q) (ix2 ⟨2048 + k.val, by omega⟩ Q) rfl hi1]

end Cert.ReferenceIdeal.Bridge

end
-- ==== Proof.RefValue.lean ====
/-
  What the tiled program's result array ends holding.

  The grid is 16 row tiles × 2 column tiles × 2 inner-dimension steps, the step running fastest: point t works on row
  tile t / 4, column tile (t / 2) mod 2, step t mod 2. At step 0 the accumulator is reset and updated; at step 1 it is
  updated again and the output tile is stored and written back. So a write-back happens at the odd points only, and
  what the odd point t writes back is built from its own blocks and those of the point before it. Entry (p, q) of that
  tile is the layer's entry (256·(t/4) + p, 512·((t/2) mod 2) + q): the two steps' blocks are the first and the second
  2048 inner positions. The 32 written tiles tile the array, so after the run it is the layer of the arrays the region
  was entered with.
-/
import proofs.«152921_g2000205649556330_pallasbulk_974_2_alg».proof.Proof.RefPieces
import proofs.«152921_g2000205649556330_pallasbulk_974_2_alg».proof.Proof.RefPayload
import proofs.«152921_g2000205649556330_pallasbulk_974_2_alg».proof.Proof.Layer
import Idealize.ShloMosaic.Lib.Pipeline.Value

noncomputable section

open scoped BigOperators

namespace Cert.ReferenceIdeal.Bridge

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The block indices over the grid, in closed form. -/
theorem idx_facts : ∀ t : Fin cfg0.N, win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = 0 ∧ win0_2.index t (1 : Fin 2) = t.val / 2 % 2
    ∧ win0_3.index t (0 : Fin 2) = 0 ∧ win0_3.index t (1 : Fin 2) = t.val / 2 % 2
    ∧ win0_4.index t (0 : Fin 2) = t.val / 4 ∧ win0_4.index t (1 : Fin 2) = t.val / 2 % 2 :=
  (by decide +kernel : ∀ t : Fin grid0.N, _)

/-- The block of X at point t: rows 256·(t/4) …, inner positions 2048·(t mod 2) …. -/
theorem rows_apply (c : Dev nD) (t : Fin cfg0.N) (x : S256x2048.Idx) (k : S4096x4096.Idx)
    (hk0 : (k 0).val = 256 * (t.val / 4) + (x 0).val) (hk1 : (k 1).val = 2048 * (t.val % 2) + (x 1).val) :
    (iblk m c 0 t : Vec Ideal S256x2048 .f32) x = (V m c main_v7 : S4096x4096.Idx → EReal) k := by
  obtain ⟨e0, e1, -⟩ := idx_facts t
  unfold iblk
  rw [View.read_apply]
  show V m c main_v7 _ = V m c main_v7 k
  refine congrArg (V m c main_v7) ?_
  funext a
  apply Fin.ext
  match a with
  | ⟨0, _⟩ => show win0_0.index t 0 * 256 + 1 * (x 0).val = (k 0).val; rw [e0, hk0]; omega
  | ⟨1, _⟩ => show win0_0.index t 1 * 2048 + 1 * (x 1).val = (k 1).val; rw [e1, hk1]; omega

/-- The block of W at point t: inner positions 2048·(t mod 2) …, columns 512·((t/2) mod 2) …. -/
theorem weights_apply (c : Dev nD) (t : Fin cfg0.N) (x : S2048x512.Idx) (k : S4096x1024.Idx)
    (hk0 : (k 0).val = 2048 * (t.val % 2) + (x 0).val) (hk1 : (k 1).val = 512 * (t.val / 2 % 2) + (x 1).val) :
    (iblk m c 1 t : Vec Ideal S2048x512 .f32) x = (V m c main_arg1 : S4096x1024.Idx → EReal) k := by
  obtain ⟨-, -, e0, e1, -⟩ := idx_facts t
  unfold iblk
  rw [View.read_apply]
  show V m c main_arg1 _ = V m c main_arg1 k
  refine congrArg (V m c main_arg1) ?_
  funext a
  apply Fin.ext
  match a with
  | ⟨0, _⟩ => show win0_1.index t 0 * 2048 + 1 * (x 0).val = (k 0).val; rw [e0, hk0]; omega
  | ⟨1, _⟩ => show win0_1.index t 1 * 512 + 1 * (x 1).val = (k 1).val; rw [e1, hk1]; omega

/-- The block of the scale row at point t: columns 512·((t/2) mod 2) …. -/
theorem scale_apply (c : Dev nD) (t : Fin cfg0.N) (x : S1x512.Idx) (k : S1x1024.Idx)
    (hk1 : (k 1).val = 512 * (t.val / 2 % 2) + (x 1).val) :
    (iblk m c 2 t : Vec Ideal S1x512 .f32) x = (V m c main_v8 : S1x1024.Idx → EReal) k := by
  obtain ⟨-, -, -, -, e0, e1, -⟩ := idx_facts t
  have hx : (x 0).val < 1 := (x 0).isLt
  have hk : (k 0).val < 1 := (k 0).isLt
  unfold iblk
  rw [View.read_apply]
  show V m c main_v8 _ = V m c main_v8 k
  refine congrArg (V m c main_v8) ?_
  funext a
  apply Fin.ext
  match a with
  | ⟨0, _⟩ => show win0_2.index t 0 * 1 + 1 * (x 0).val = (k 0).val; rw [e0]; omega
  | ⟨1, _⟩ => show win0_2.index t 1 * 512 + 1 * (x 1).val = (k 1).val; rw [e1, hk1]; omega

/-- The block of the shift row at point t: columns 512·((t/2) mod 2) …. -/
theorem shift_apply (c : Dev nD) (t : Fin cfg0.N) (x : S1x512.Idx) (k : S1x1024.Idx)
    (hk1 : (k 1).val = 512 * (t.val / 2 % 2) + (x 1).val) :
    (iblk m c 3 t : Vec Ideal S1x512 .f32) x = (V m c main_v9 : S1x1024.Idx → EReal) k := by
  obtain ⟨-, -, -, -, -, -, e0, e1, -⟩ := idx_facts t
  have hx : (x 0).val < 1 := (x 0).isLt
  have hk : (k 0).val < 1 := (k 0).isLt
  unfold iblk
  rw [View.read_apply]
  show V m c main_v9 _ = V m c main_v9 k
  refine congrArg (V m c main_v9) ?_
  funext a
  apply Fin.ext
  match a with
  | ⟨0, _⟩ => show win0_3.index t 0 * 1 + 1 * (x 0).val = (k 0).val; rw [e0]; omega
  | ⟨1, _⟩ => show win0_3.index t 1 * 512 + 1 * (x 1).val = (k 1).val; rw [e1, hk1]; omega

/-- The point before an odd point. -/
def prev (t : Fin cfg0.N) : Fin cfg0.N := ⟨t.val - 1, Nat.lt_of_le_of_lt (Nat.sub_le _ _) t.isLt⟩

theorem prev_val (t : Fin cfg0.N) : (prev t).val = t.val - 1 := rfl

/-- The output tile after an odd point: the clamped affine image of the zero tile updated by the blocks of the point
    before and then by the point's own. -/
theorem after_odd (c : Dev nD) (t : Fin cfg0.N) (h1 : t.val % 2 = 1) :
    (outsAt0 m c t.val t.isLt).1
      = k0_pay3 (F := Ideal) (k0_pay2 (k0_pay2 k0_pay1 (iblk m c 0 (prev t)) (iblk m c 1 (prev t))) (iblk m c 0 t) (iblk m c 1 t))
          (iblk m c 2 t) (iblk m c 3 t) := by
  have h0 : ¬ t.val % 2 = 0 := by omega
  rw [outsAt0_B m c t h0 h1]
  dsimp only
  rw [out_second]
  show k0_pay3 (F := Ideal) (k0_pay2 (outsAt0 m c (prev t).val (prev t).isLt).2 (iblk m c 0 t) (iblk m c 1 t))
      (iblk m c 2 t) (iblk m c 3 t) = _
  rw [outsAt0_A m c (prev t) (by rw [prev_val]; omega) (by rw [prev_val]; omega)]
  dsimp only
  rw [scratch_first]

/-- What an odd point t writes back is tile t of the layer of the arrays the region was entered with. -/
theorem flushed_eq (c : Dev nD) (t : Fin cfg0.N) (hf : (cfg0.win 4).flush t = true) :
    (dats m 0 c).flushed 4 t = ((cfg0.win 4).blk t).view.read (Elt Ideal)
      (Cert.Layer.layer (V m c main_v7) (V m c main_arg1) (V m c main_v8) (V m c main_v9)) := by
  have h1 : t.val % 2 = 1 := (flush0_4 t).mp hf
  have hp : (prev t).val = t.val - 1 := rfl
  show (cfg0.win 4).cut (grid0.coords t) ((dats m 0 c).after 4 t) = _
  rw [after0_4, after_odd m c t h1]
  obtain ⟨-, -, -, -, -, -, -, -, e0, e1⟩ := idx_facts t
  funext j
  show k0_pay3 (F := Ideal) (k0_pay2 (k0_pay2 k0_pay1 (iblk m c 0 (prev t)) (iblk m c 1 (prev t))) (iblk m c 0 t) (iblk m c 1 t))
      (iblk m c 2 t) (iblk m c 3 t) j
    = Cert.Layer.layer (V m c main_v7) (V m c main_arg1) (V m c main_v8) (V m c main_v9) (((cfg0.win 4).blk t).view.emb j)
  refine tile_entry (V m c main_v7) (V m c main_arg1) (V m c main_v8) (V m c main_v9)
    (iblk m c 0 (prev t)) (iblk m c 0 t) (iblk m c 1 (prev t)) (iblk m c 1 t) (iblk m c 2 t) (iblk m c 3 t)
    (t.val / 4) (t.val / 2 % 2) j (((cfg0.win 4).blk t).view.emb j) ?_ ?_
    (fun x k hk0 hk1 => rows_apply m c (prev t) x k (by rw [hp, hk0]; omega) (by rw [hp, hk1]; omega))
    (fun x k hk0 hk1 => weights_apply m c (prev t) x k (by rw [hp, hk0]; omega) (by rw [hp, hk1]; omega))
    (fun x k hk0 hk1 => rows_apply m c t x k hk0 (by rw [hk1]; omega))
    (fun x k hk0 hk1 => weights_apply m c t x k (by rw [hk0]; omega) hk1)
    (fun x k hk1 => scale_apply m c t x k hk1) (fun x k hk1 => shift_apply m c t x k hk1)
  · show win0_4.index t 0 * 256 + 1 * (j 0).val = 256 * (t.val / 4) + (j 0).val
    rw [e0]; omega
  · show win0_4.index t 1 * 512 + 1 * (j 1).val = 512 * (t.val / 2 % 2) + (j 1).val
    rw [e1]; omega

/-- An index of the result array is in point t's tile iff each coordinate is in the tile's range on its axis. -/
theorem mem_blk (t : Fin cfg0.N) (i : S4096x1024.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v10).slice (win0_4.rect t)).set ↔ _
  rw [View.set_slice_whole, Rect.mem_set_unit]
  exact Iff.rfl

/-- The result array after the run: the layer of the arrays the region was entered with. -/
theorem final (c : Dev nD) : (dats m 0 c).arrAt 4 cfg0.N
    = Cert.Layer.layer (V m c main_v7) (V m c main_arg1) (V m c main_v8) (V m c main_v9) :=
  (dats m 0 c).arrAt_eq_of_cover 4 _ (flushed_eq m c) fun i => by
    have h0 : (i 0).val < 4096 := (i 0).isLt
    have h1 : (i 1).val < 1024 := (i 1).isLt
    have hN : cfg0.N = 64 := N_0
    have hlt : (i 0).val / 256 * 4 + (i 1).val / 512 * 2 + 1 < cfg0.N := by rw [hN]; omega
    refine ⟨⟨(i 0).val / 256 * 4 + (i 1).val / 512 * 2 + 1, hlt⟩, (flush0_4 _).mpr (by dsimp only; omega), ?_⟩
    rw [mem_blk]
    obtain ⟨-, -, -, -, -, -, -, -, e0, e1⟩ := idx_facts ⟨(i 0).val / 256 * 4 + (i 1).val / 512 * 2 + 1, hlt⟩
    intro a
    match a with
    | ⟨0, _⟩ =>
      show win0_4.index _ 0 * 256 ≤ (i 0).val ∧ (i 0).val < win0_4.index _ 0 * 256 + 256
      rw [e0]; dsimp only; omega
    | ⟨1, _⟩ =>
      show win0_4.index _ 1 * 512 ≤ (i 1).val ∧ (i 1).val < win0_4.index _ 1 * 512 + 512
      rw [e1]; dsimp only; omega

end Cert.ReferenceIdeal.Bridge

end
-- ==== Proof.RefRun.lean ====
/-
  The tiled program's run, read: its result is the layer, re-viewed as [64, 64, 1024].

  Before the region the program re-views x [64, 64, 4096] as the row matrix [4096, 4096] and forms the per-column
  scale S = gamma · rsqrt (var + eps) and shift T = (b − mean) · S + beta as rows [1, 1024]; the weights enter the
  region as they are. After the region it re-views the [4096, 1024] result as [64, 64, 1024]. The region's array ends
  at the layer of those operands.
-/
import proofs.«152921_g2000205649556330_pallasbulk_974_2_alg».proof.Proof.RefValue
import Idealize.ShloMosaic.Lib.StableHlo.Run

noncomputable section

namespace Cert.ReferenceIdeal.Bridge

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The program's result: the layer of the region-entry operands, re-viewed as [64, 64, 1024]. -/
def result (c : Dev nD) : Buf (Elt Ideal) ((c : Thread nD τ).loc main_v11) :=
  shapeCast S64x64x1024 (Cert.Layer.layer (V m c main_v7) (V m c main_arg1) (V m c main_v8) (V m c main_v9))
    shapeCasts_S4096x1024_S64x64x1024

/-- The line after the region re-views the region's array. -/
theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.tc.devRef main_v10)
      = Cert.Layer.layer (V m c main_v7) (V m c main_arg1) (V m c main_v8) (V m c main_v9) :=
    (Pipeline.withArrays_arr spec0 launch0.win.arr_inj c _ _ 4).trans (final m c)
  rw [e]
  rfl

/-- The run, read: the result at the re-viewed layer, every argument unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-! ### The operands the region is entered with, as terms of the arguments -/

/-- The row matrix: x re-viewed as [4096, 4096]. -/
theorem V_rows (c : Dev nD) : (V m c main_v7 : S4096x4096.Idx → EReal)
    = shapeCast S4096x4096 (m ((c.tc : Thread nD τ).loc main_arg0)) shapeCasts_S64x64x4096_S4096x4096 := by
  show StableHlo.after hostOps0 (fun b => m (c, b)) (Proc.devRef .tc main_v7) = _
  after_results
  rfl

/-- The per-column scale gamma · rsqrt (var + eps), as a vector [1024]. -/
def scaleOf (gamma var : FVec Ideal S1024 .f32) : FVec Ideal S1024 .f32 :=
  mulf gamma (Host.rsqrt (F := Ideal) (addf var (broadcastInDim S1024 ![] bcast_S_S1024 (constant (F := Ideal) S_ .f32 0x3727C5AC#32))))

/-- The per-column shift (b − mean) · scale + beta, as a vector [1024]. -/
def shiftOf (b mean beta s : FVec Ideal S1024 .f32) : FVec Ideal S1024 .f32 :=
  addf (mulf (subf b mean) s) beta

/-- The scale row the region is entered with. -/
theorem V_scale (c : Dev nD) : (V m c main_v8 : S1x1024.Idx → EReal)
    = shapeCast S1x1024 (scaleOf (m ((c.tc : Thread nD τ).loc main_arg3)) (m ((c.tc : Thread nD τ).loc main_arg6))) shapeCasts_S1024_S1x1024 := by
  show StableHlo.after hostOps0 (fun b => m (c, b)) (Proc.devRef .tc main_v8) = _
  after_results
  rfl

/-- The shift row the region is entered with. -/
theorem V_shift (c : Dev nD) : (V m c main_v9 : S1x1024.Idx → EReal)
    = shapeCast S1x1024 (shiftOf (m ((c.tc : Thread nD τ).loc main_arg2)) (m ((c.tc : Thread nD τ).loc main_arg5))
        (m ((c.tc : Thread nD τ).loc main_arg4))
        (scaleOf (m ((c.tc : Thread nD τ).loc main_arg3)) (m ((c.tc : Thread nD τ).loc main_arg6)))) shapeCasts_S1024_S1x1024 := by
  show StableHlo.after hostOps0 (fun b => m (c, b)) (Proc.devRef .tc main_v9) = _
  after_results
  rfl

end Cert.ReferenceIdeal.Bridge

end
-- ==== Proof.lean ====
/-
  A fused linear layer, batch normalisation at inference and a clamp at zero, computed two ways.

  Both programs compute, for x [64, 64, 4096] viewed as 4096 rows, weights w [4096, 1024] and per-column
  S = gamma · rsqrt (var + eps), T = (b − mean) · S + beta (the same eps word on both sides):
      out (r, c) = max ((Σ_k x(r,k) · w(k,c)) · S(c) + T(c), 0).
  The first program takes row blocks of 512 against the whole weight matrix (rounded to a narrower format on the
  way in, which over the extended reals is the identity) and forms each row's whole inner product at once. The
  second tiles the output 256 × 512 and splits the inner dimension in two halves of 2048, carrying an accumulator:
  (0 + first half) + second half. Addition of extended reals is commutative and associative with neutral 0, so the
  two halves and the initial zero add to the whole inner product (Proof/Layer.lean, sum_halves); no input needs to be
  finite for that, and the precondition is never opened.

  Each side's result array is read off its frame run as the layer function (Proof/Layer.lean) of the operands the
  region is entered with (Proof/KernelValue.lean, Proof/RefValue.lean); those operands, and the re-view of the
  result as [64, 64, 1024], are the same host operations of the same arguments on both sides (Proof/KernelRun.lean,
  Proof/RefRun.lean). The three frame claims are the frame runs themselves; the idealisation rewrote nothing.
-/
import proofs.«152921_g2000205649556330_pallasbulk_974_2_alg».proof.Defs
import proofs.«152921_g2000205649556330_pallasbulk_974_2_alg».proof.Proof.Gen.Kernel.Frame
import proofs.«152921_g2000205649556330_pallasbulk_974_2_alg».proof.Proof.Gen.KernelIdeal.Frame
import proofs.«152921_g2000205649556330_pallasbulk_974_2_alg».proof.Proof.Gen.ReferenceIdeal.Frame
import proofs.«152921_g2000205649556330_pallasbulk_974_2_alg».proof.Proof.Gen.Pre_finite_inputs
import proofs.«152921_g2000205649556330_pallasbulk_974_2_alg».proof.Proof.KernelRun
import proofs.«152921_g2000205649556330_pallasbulk_974_2_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealisation rewrote no operation. -/
theorem preserves : Cert.preserves_Kernel_KernelIdeal := trivial

/-- Both programs' results are the layer of the same operands, re-viewed the same way. -/
theorem algebraic : Cert.algebraic_KernelIdeal_ReferenceIdeal := by
  intro m ρ m' ρ' _ hagree
  refine ⟨fun c => Cert.KernelIdeal.Bridge.result m c, Cert.KernelIdeal.Bridge.run m ρ, ?_⟩
  refine (θ_run Cert.ReferenceIdeal.defs _ _).mono (fun _ h c => ⟨(h c).1.trans ?_, (h c).2⟩)
    (Cert.ReferenceIdeal.Bridge.run m' ρ')
  obtain ⟨a0, a1, a2, a3, a4, a5, a6⟩ := hagree c
  show Cert.ReferenceIdeal.Bridge.result m' c = Cert.KernelIdeal.Bridge.result m c
  unfold Cert.ReferenceIdeal.Bridge.result Cert.KernelIdeal.Bridge.result
  rw [Cert.ReferenceIdeal.Bridge.V_rows, Cert.ReferenceIdeal.Gen.V_main_arg1, Cert.ReferenceIdeal.Bridge.V_scale,
    Cert.ReferenceIdeal.Bridge.V_shift, Cert.KernelIdeal.Bridge.V_rows, Cert.KernelIdeal.Bridge.V_weights,
    Cert.KernelIdeal.Bridge.V_scale, Cert.KernelIdeal.Bridge.V_shift, a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
